-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S8x19x128x128 : Shape := ⟨4, ![8, 19, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S8x19x128x128 : S_.BroadcastsInDim S8x19x128x128 (![] : Fin 0 → Fin S8x19x128x128.rank)
  reducesTo_S8x19x128x128_S_d0_1_2_3 : S8x19x128x128.ReducesTo [0, 1, 2, 3] S_

variable [Facts]

def fn {F : FTy → Type} [FloatOps F] (main_arg0 : FVec F S8x512x128x128 .f32) (main_arg1 : FVec F S8x19x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x19x128x128 .f32 := Host.absf main_arg1
  let main_cst_0 : FVec F S_ .f32 := constant S_ .f32 0x7F800000#32
  let main_v5 : FVec F S8x19x128x128 .f32 := broadcastInDim S8x19x128x128 ![] bcast_S_S8x19x128x128 main_cst_0
  let main_v6 : IVec S8x19x128x128 1 := cmpf .olt main_v4 main_v5
  let main_c_1 : IVec S_ 1 := constantI S_ 1 1#1
  let main_v7 : IVec S_ 1 := (fun x v => Host.reduce IntOp.andi x v reducesTo_S8x19x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S8x512x16384 : Shape := ⟨3, ![8, 512, 16384]⟩
abbrev S_ : Shape := ⟨0, ![]⟩
abbrev S8x19 : Shape := ⟨2, ![8, 19]⟩
abbrev S8x19x1 : Shape := ⟨3, ![8, 19, 1]⟩
abbrev S8x512x19 : Shape := ⟨3, ![8, 512, 19]⟩
abbrev S1x19x4096 : Shape := ⟨3, ![1, 19, 4096]⟩
abbrev S1x512x4096 : Shape := ⟨3, ![1, 512, 4096]⟩
abbrev S1x512x19 : Shape := ⟨3, ![1, 512, 19]⟩
abbrev S512x19 : Shape := ⟨2, ![512, 19]⟩
abbrev S19x4096 : Shape := ⟨2, ![19, 4096]⟩
abbrev S512x4096 : Shape := ⟨2, ![512, 4096]⟩
abbrev S8x1x19 : Shape := ⟨3, ![8, 1, 19]⟩
abbrev S8x512x19x1 : Shape := ⟨4, ![8, 512, 19, 1]⟩

abbrev nBuf : Space → Nat
  | .hbm => 17
  | .vmem => 7
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S8x512x16384, .f32⟩
  | .hbm, ⟨4, _⟩ => ⟨S_, .f32⟩
  | .hbm, ⟨5, _⟩ => ⟨S8x19, .f32⟩
  | .hbm, ⟨6, _⟩ => ⟨S8x19x1, .f32⟩
  | .hbm, ⟨7, _⟩ => ⟨S8x19x16384, .f32⟩
  | .hbm, ⟨8, _⟩ => ⟨S8x19x16384, .f32⟩
  | .hbm, ⟨9, _⟩ => ⟨S8x19x16384, .f32⟩
  | .hbm, ⟨10, _⟩ => ⟨S_, .f32⟩
  | .hbm, ⟨11, _⟩ => ⟨S8x19, .f32⟩
  | .hbm, ⟨12, _⟩ => ⟨S8x512x19, .f32⟩
  | .hbm, ⟨13, _⟩ => ⟨S8x1x19, .f32⟩
  | .hbm, ⟨14, _⟩ => ⟨S8x512x19, .f32⟩
  | .hbm, ⟨15, _⟩ => ⟨S8x512x19, .f32⟩
  | .hbm, ⟨16, _⟩ => ⟨S8x512x19x1, .f32⟩
  | .local _ .vmem, ⟨0, _⟩ => ⟨S1x19x4096, .f32⟩
  | .local _ .vmem, ⟨1, _⟩ => ⟨S1x19x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512x19, .f32⟩
  | .local _ .vmem, ⟨5, _⟩ => ⟨S1x512x19, .f32⟩
  | .local _ .vmem, ⟨6, _⟩ => ⟨S512x19, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x19x128x128_S8x19x16384 : S8x19x128x128.ShapeCasts S8x19x16384
  shapeCasts_S8x512x128x128_S8x512x16384 : S8x512x128x128.ShapeCasts S8x512x16384
  reducesTo_S8x19x16384_S8x19_d2 : S8x19x16384.ReducesTo [2] S8x19
  h_S_ : 0 < S_.numel
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  inb_S512x19_S512x19_0_0 : ∀ a, (![0, 0] : Fin 2 → Nat) a + S512x19.size a ≤ S512x19.size a
  h_S512x19 : 0 < S512x19.numel
  shapeCasts_S512x19_S512x19 : S512x19.ShapeCasts S512x19
  inb_S1x19x4096_S1x19x4096_0_0_0 : ∀ a, (![0, 0, 0] : Fin 3 → Nat) a + S1x19x4096.size a ≤ S1x19x4096.size a
  h_S1x19x4096 : 0 < S1x19x4096.numel
  shapeCasts_S1x19x4096_S19x4096 : S1x19x4096.ShapeCasts S19x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x512x19_S1x512x19_0_0_0 : ∀ a, (![0, 0, 0] : Fin 3 → Nat) a + S1x512x19.size a ≤ S1x512x19.size a
  h_S1x512x19 : 0 < S1x512x19.numel
  shapeCasts_S1x512x19_S512x19 : S1x512x19.ShapeCasts S512x19
  shapeCasts_S512x19_S1x512x19 : S512x19.ShapeCasts S1x512x19
  bcast_S8x19_S8x1x19_0_2 : S8x19.BroadcastsInDim S8x1x19 (![0, 2] : Fin 2 → Fin S8x1x19.rank)
  bcast_S8x1x19_S8x512x19_0_1_2 : S8x1x19.BroadcastsInDim S8x512x19 (![0, 1, 2] : Fin 3 → Fin S8x512x19.rank)
  bcast_S8x512x19_S8x512x19x1_0_1_2 : S8x512x19.BroadcastsInDim S8x512x19x1 (![0, 1, 2] : Fin 3 → Fin S8x512x19x1.rank)
  dot_S512x4096_S19x4096_S512x19_1_1_0_0_n_n_wf : DotDims.WF S512x4096 S19x4096 S512x19 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x4096.size a ≤ S8x19x16384.size a
  hwx0_0 : ∀ i : grid0.Coords, EltTy.bits .f32 = 32 ∨ (Rect.block (s := S8x19x16384) S1x19x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x16384.size a
  hwx0_1 : ∀ i : grid0.Coords, EltTy.bits .f32 = 32 ∨ (Rect.block (s := S8x512x16384) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x19.size a ≤ S8x512x19.size a
  hwx0_2 : ∀ i : grid0.Coords, EltTy.bits .f32 = 32 ∨ (Rect.block (s := S8x512x19) S1x512x19.size (cc0_transform_2 i) (hinb0_2 i)).WholeWords (EltTy.packing .f32)

variable [Facts₀]

def dot_S512x4096_S19x4096_S512x19_1_1_0_0_n_n : DotDims S512x4096 S19x4096 S512x19 where
  lhsContracting := [1]
  rhsContracting := [1]
  lhsNonContracting := [0]
  rhsNonContracting := [0]
  lhsBatch := []
  rhsBatch := []
  wf := dot_S512x4096_S19x4096_S512x19_1_1_0_0_n_n_wf

abbrev win0_0 : Pipeline.Window sig grid0 :=
  Pipeline.Window.ofSpec (Memref.whole main_v6) S1x19x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S_ : Shape := ⟨0, ![]⟩
abbrev S8x19 : Shape := ⟨2, ![8, 19]⟩
abbrev S8x19x1 : Shape := ⟨3, ![8, 19, 1]⟩
abbrev S8x512x16384 : Shape := ⟨3, ![8, 512, 16384]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S_, .f32⟩
  | .hbm, ⟨4, _⟩ => ⟨S8x19, .f32⟩
  | .hbm, ⟨5, _⟩ => ⟨S_, .f32⟩
  | .hbm, ⟨6, _⟩ => ⟨S8x19, .f32⟩
  | .hbm, ⟨7, _⟩ => ⟨S8x19, .f32⟩
  | .hbm, ⟨8, _⟩ => ⟨S8x19x1, .f32⟩
  | .hbm, ⟨9, _⟩ => ⟨S8x19x16384, .f32⟩
  | .hbm, ⟨10, _⟩ => ⟨S8x19x16384, .f32⟩
  | .hbm, ⟨11, _⟩ => ⟨S8x19x16384, .f32⟩
  | .hbm, ⟨12, _⟩ => ⟨S_, .f32⟩
  | .hbm, ⟨13, _⟩ => ⟨S8x19, .f32⟩
  | .hbm, ⟨14, _⟩ => ⟨S8x19x1, .f32⟩
  | .hbm, ⟨15, _⟩ => ⟨S8x19x16384, .f32⟩
  | .hbm, ⟨16, _⟩ => ⟨S8x19x16384, .f32⟩
  | .hbm, ⟨17, _⟩ => ⟨S8x512x16384, .f32⟩
  | .hbm, ⟨18, _⟩ => ⟨S8x19x512, .f32⟩
  | .hbm, ⟨19, _⟩ => ⟨S8x512x19, .f32⟩
  | .hbm, ⟨20, _⟩ => ⟨S8x512x19x1, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  reducesTo_S8x19x16384_S8x19_d2 : S8x19x16384.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  shapeCasts_S8x512x128x128_S8x512x16384 : S8x512x128x128.ShapeCasts S8x512x16384
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x16384_S8x512x16384_S8x19x512_2_2_1_1_0_0_wf : DotDims.WF S8x19x16384 S8x512x16384 S8x19x512 [2] [2] [1] [1] [0] [0]

variable [Facts₀]

def dot_S8x19x16384_S8x512x16384_S8x19x512_2_2_1_1_0_0 : DotDims S8x19x16384 S8x512x16384 S8x19x512 where
  lhsContracting := [2]
  rhsContracting := [2]
  lhsNonContracting := [1]
  rhsNonContracting := [1]
  lhsBatch := [0]
  rhsBatch := [0]
  wf := dot_S8x19x16384_S8x512x16384_S8x19x512_2_2_1_1_0_0_wf

class Facts : Prop extends Facts₀ where

variable [Facts]
-- ==== Proof.Target.lean ====
/-
  The pooled features, as ONE function of the two argument arrays.

  With the spatial axes merged (s = 128·h + w), for a batch b, a class k and a channel c:
    weights  p (b, k, s) = exp (aux (b, k, s) − max over s' of aux (b, k, s'))    (the softmax numerator),
    mass     l (b, k)    = 0 + ∑ over s of p (b, k, s)                              (the softmax denominator),
    raw      r (b, c, k) = ∑ over s of feats (b, c, s) · p (b, k, s),
    pooled   (b, c, k, 0) = r (b, c, k) / l (b, k).
  The weights and the mass are kept as whole-array terms of the host operations that compute them; the
  contraction over s and the quotient are stated index by index.
-/
import proofs.«130194_j24550033064496_2_alg».proof.KernelIdeal
import Idealize.ShloMosaic.PureOps.Ideal
import Idealize.ShloMosaic.Lib.ValueIdx

noncomputable section

namespace Cert.Target

open Idealize.ShloMosaic Idealize.ShloMosaic.ValueIdx Cert.KernelIdeal
open scoped BigOperators

variable [Cert.KernelIdeal.Facts]
open Cert.KernelIdeal.Facts₀

/-- The feature array with its two spatial axes merged. -/
def feats2 (x0 : FVec Ideal S8x512x128x128 .f32) : FVec Ideal S8x512x16384 .f32 :=
  shapeCast _ x0 shapeCasts_S8x512x128x128_S8x512x16384

/-- The logits with their two spatial axes merged. -/
def aux2 (x1 : FVec Ideal S8x19x128x128 .f32) : FVec Ideal S8x19x16384 .f32 :=
  shapeCast _ x1 shapeCasts_S8x19x128x128_S8x19x16384

/-- The largest logit of each (batch, class) row, from −∞. -/
def rowMax (x1 : FVec Ideal S8x19x128x128 .f32) : FVec Ideal S8x19 .f32 :=
  Host.reduce (FloatOps.maximumf (F := Ideal) (φ := .f32)) (aux2 x1) (constant (F := Ideal) S_ .f32 0xFF800000#32) reducesTo_S8x19x16384_S8x19_d2 h_S_

/-- The softmax numerator: exp (logit − row maximum). -/
def weights (x1 : FVec Ideal S8x19x128x128 .f32) : FVec Ideal S8x19x16384 .f32 :=
  Host.exp (F := Ideal) (φ := .f32) (subf (F := Ideal) (φ := .f32) (aux2 x1)
    (broadcastInDim S8x19x16384 ![0, 1, 2] bcast_S8x19x1_S8x19x16384_0_1_2
      (broadcastInDim S8x19x1 ![0, 1] bcast_S8x19_S8x19x1_0_1 (rowMax x1) : FVec Ideal S8x19x1 .f32)))

/-- The softmax denominator: 0 + the row's sum of the numerator. -/
def mass (x1 : FVec Ideal S8x19x128x128 .f32) : FVec Ideal S8x19 .f32 :=
  Host.reduceAdd (F := Ideal) (weights x1) (constant (F := Ideal) S_ .f32 0x00000000#32) reducesTo_S8x19x16384_S8x19_d2 h_S_

/-- The contraction over the merged spatial axis of features against weights. -/
def raw (X : S8x512x16384.Idx → EReal) (Pm : S8x19x16384.Idx → EReal) (b : Fin 8) (c : Fin 512) (k : Fin 19) : EReal :=
  ∑ s : Fin 16384, X (ix3 b c s) * Pm (ix3 b k s)

/-- The result: the contraction divided by the row's mass. -/
def pooled (x0 : FVec Ideal S8x512x128x128 .f32) (x1 : FVec Ideal S8x19x128x128 .f32) :
    FVec Ideal S8x512x19x1 .f32 :=
  fun i => Ideal.div (raw (feats2 x0) (weights x1) (i 0) (i 1) (i 2)) (mass x1 (ix2 (i 0) (i 2)))

end Cert.Target

end
-- ==== Proof.KPieces.lean ====
import proofs.«130194_j24550033064496_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.Tactic

/-! What each control case of the body leaves behind, as values.

The body keeps a running [512, 19] accumulator in a scratch buffer. At the first spatial tile of a batch it
stores zeros and then adds the tile's product; at the later tiles it adds the tile's product to what the
tile before left; at the last tile it also copies the accumulator, with a leading unit axis, to the output
block. Each of these is the body's own pure term of the loaded blocks. -/

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the accumulator at (what it held) + (the tile's product). -/
theorem sout_B (c : Dev nD) (i : grid0.Coords) (arg2 : Memref sig .tc .vmem S1x19x4096 .f32) (harg2 : arg2.IsWhole) (arg3 : Memref sig .tc .vmem S1x512x4096 .f32) (harg3 : arg3.IsWhole) (arg4 : Memref sig .tc .vmem S1x512x19 .f32) (harg4 : arg4.IsWhole) (harg5 : (scM0_0).IsWhole) (hc0 : ¬cond0_0 i) (hc1 : ¬cond0_1 i)
    (x0 : Vec F S1x19x4096 .f32) (x1 : Vec F S1x512x4096 .f32) (xs0 : Vec F S512x19 .f32) :
    sout0_B_0 c i arg2 harg2 arg3 harg3 arg4 harg4 scM0_0 harg5 hc0 hc1 x0 x1 xs0 = k0_pay2 x0 x1 xs0 := by
  unfold sout0_B_0
  rw [View.read_writes_eq_canon _ _ _ (scover0_B_0 c i arg2 harg2 arg3 harg3 arg4 harg4 scM0_0 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1x19x4096) hz3, View.ld_unit_zero (S := S1x512x4096) hz3, View.ld_unit_zero (S := S512x19) hz2]

/-- The last tile leaves the accumulator likewise, -/
theorem sout_C (c : Dev nD) (i : grid0.Coords) (arg2 : Memref sig .tc .vmem S1x19x4096 .f32) (harg2 : arg2.IsWhole) (arg3 : Memref sig .tc .vmem S1x512x4096 .f32) (harg3 : arg3.IsWhole) (arg4 : Memref sig .tc .vmem S1x512x19 .f32) (harg4 : arg4.IsWhole) (harg5 : (scM0_0).IsWhole) (hc0 : ¬cond0_0 i) (hc1 : cond0_1 i)
    (x0 : Vec F S1x19x4096 .f32) (x1 : Vec F S1x512x4096 .f32) (xs0 : Vec F S512x19 .f32) :
    sout0_C_0 c i arg2 harg2 arg3 harg3 arg4 harg4 scM0_0 harg5 hc0 hc1 x0 x1 xs0 = k0_pay2 x0 x1 xs0 := by
  unfold sout0_C_0
  rw [View.read_writes_eq_canon _ _ _ (scover0_C_0 c i arg2 harg2 arg3 harg3 arg4 harg4 scM0_0 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1x19x4096) hz3, View.ld_unit_zero (S := S1x512x4096) hz3, View.ld_unit_zero (S := S512x19) hz2]

/-- and the output block at that accumulator with a leading unit axis. -/
theorem out_C (c : Dev nD) (i : grid0.Coords) (arg2 : Memref sig .tc .vmem S1x19x4096 .f32) (harg2 : arg2.IsWhole) (arg3 : Memref sig .tc .vmem S1x512x4096 .f32) (harg3 : arg3.IsWhole) (arg4 : Memref sig .tc .vmem S1x512x19 .f32) (harg4 : arg4.IsWhole) (harg5 : (scM0_0).IsWhole) (hc0 : ¬cond0_0 i) (hc1 : cond0_1 i)
    (x0 : Vec F S1x19x4096 .f32) (x1 : Vec F S1x512x4096 .f32) (xs0 : Vec F S512x19 .f32) :
    out0_C_2 c i arg2 harg2 arg3 harg3 arg4 harg4 scM0_0 harg5 hc0 hc1 x0 x1 xs0 = k0_pay3 (k0_pay2 x0 x1 xs0) := by
  unfold out0_C_2
  rw [View.read_writes_eq_canon _ _ _ (cover0_C_2 c i arg2 harg2 arg3 harg3 arg4 harg4 scM0_0 harg5 hc0 hc1 x0 x1 xs0)]
  unfold kernelRun0_C
  dsimp only
  sl_unfold_words
  rw [View.canon_unit_zero hz3]
  simp only [View.readCov_unit_zero (S := S512x19) _ hz2, View.readAt_eq_ld, harg2.read_unread, harg3.read_unread, harg5.read_unread,
    View.ld_unit_zero (S := S1x19x4096) hz3, View.ld_unit_zero (S := S1x512x4096) hz3, View.ld_unit_zero (S := S512x19) hz2]

/-- The first tile of a batch leaves the accumulator at zeros + (the tile's product). -/
theorem sout_A (c : Dev nD) (i : grid0.Coords) (arg2 : Memref sig .tc .vmem S1x19x4096 .f32) (harg2 : arg2.IsWhole) (arg3 : Memref sig .tc .vmem S1x512x4096 .f32) (harg3 : arg3.IsWhole) (arg4 : Memref sig .tc .vmem S1x512x19 .f32) (harg4 : arg4.IsWhole) (harg5 : (scM0_0).IsWhole) (hc0 : cond0_0 i) (hc1 : ¬cond0_1 i)
    (x0 : Vec F S1x19x4096 .f32) (x1 : Vec F S1x512x4096 .f32) :
    sout0_A_0 c i arg2 harg2 arg3 harg3 arg4 harg4 scM0_0 harg5 hc0 hc1 x0 x1 = k0_pay2 x0 x1 (k0_pay1 (F := F)) := by
  unfold sout0_A_0
  rw [View.read_writes_eq_canon _ _ _ (scover0_A_0 c i arg2 harg2 arg3 harg3 arg4 harg4 scM0_0 harg5 hc0 hc1 x0 x1)]
  unfold kernelRun0_A
  dsimp only
  sl_unfold_words
  rw [View.canon_cons_unit_zero (S := S512x19) hz2]
  simp only [View.readAt_eq_ld, harg2.read_unread, harg3.read_unread, View.readCov_unit_zero (S := S512x19) _ hz2,
    View.ld_unit_zero (S := S1x19x4096) hz3, View.ld_unit_zero (S := S1x512x4096) hz3, View.ld_unit_zero (S := S512x19) hz2]

end Cert.KernelIdeal.Pieces

end
-- ==== Proof.KPayload.lean ====
import proofs.«130194_j24550033064496_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen
open scoped BigOperators

/-! The body's arithmetic read at an index, over the extended reals.

The tile's product contracts the spatial tile: entry (c, k) is the sum over the 4096 positions u of the tile of
(feature block at (c, u)) · (weight block at (k, u)); the two roundings to bf16 are the identity here, and the
matrix unit starts from a zero accumulator. -/

theorem lhs_0 (j : S512x19.Idx) (q : dot_S512x4096_S19x4096_S512x19_1_1_0_0_n_n.contr.Idx) :
    (dot_S512x4096_S19x4096_S512x19_1_1_0_0_n_n.lhsIdx j q 0).val = (j 0).val := by
  unfold DotDims.lhsIdx
  rw [dif_neg (show ¬(0 : Fin S512x4096.rank) ∈ dot_S512x4096_S19x4096_S512x19_1_1_0_0_n_n.lhsBatch by decide), dif_pos (show (0 : Fin S512x4096.rank) ∈ dot_S512x4096_S19x4096_S512x19_1_1_0_0_n_n.lhsNonContracting by decide)]
  rfl
theorem lhs_1 (j : S512x19.Idx) (q : dot_S512x4096_S19x4096_S512x19_1_1_0_0_n_n.contr.Idx) :
    (dot_S512x4096_S19x4096_S512x19_1_1_0_0_n_n.lhsIdx j q 1).val = (q ⟨0, by decide⟩).val :=
  dot_S512x4096_S19x4096_S512x19_1_1_0_0_n_n.lhsIdx_val_of_single rfl j q
theorem rhs_0 (j : S512x19.Idx) (q : dot_S512x4096_S19x4096_S512x19_1_1_0_0_n_n.contr.Idx) :
    (dot_S512x4096_S19x4096_S512x19_1_1_0_0_n_n.rhsIdx j q 0).val = (j 1).val := by
  unfold DotDims.rhsIdx
  rw [dif_neg (show ¬(0 : Fin S19x4096.rank) ∈ dot_S512x4096_S19x4096_S512x19_1_1_0_0_n_n.rhsBatch by decide), dif_pos (show (0 : Fin S19x4096.rank) ∈ dot_S512x4096_S19x4096_S512x19_1_1_0_0_n_n.rhsNonContracting by decide)]
  rfl
theorem rhs_1 (j : S512x19.Idx) (q : dot_S512x4096_S19x4096_S512x19_1_1_0_0_n_n.contr.Idx) :
    (dot_S512x4096_S19x4096_S512x19_1_1_0_0_n_n.rhsIdx j q 1).val = (q ⟨0, by decide⟩).val :=
  dot_S512x4096_S19x4096_S512x19_1_1_0_0_n_n.rhsIdx_val_of_single rfl j q

/-- The block of zeros the first tile stores. -/
theorem pay1_apply (j : S512x19.Idx) : (k0_pay1 (F := Ideal)) j = 0 := by
  unfold k0_pay1
  rw [shapeCast_self]
  exact Ideal.ofBits_zero_f32

/-- The accumulator after a tile, at (c, k): what it held there plus the tile's contraction. -/
theorem pay2_apply (v3 : Vec Ideal S1x19x4096 .f32) (v5 : Vec Ideal S1x512x4096 .f32) (v10 : Vec Ideal S512x19 .f32)
    (c : Fin 512) (k : Fin 19) :
    k0_pay2 (F := Ideal) v3 v5 v10 (ix2 c k)
      = v10 (ix2 c k) + ∑ u : Fin 4096, v5 (ix3 (0 : Fin 1) c u) * v3 (ix3 (0 : Fin 1) k u) := by
  unfold k0_pay2
  rw [shapeCast_self]
  refine (addf_apply _ _ _).trans (congrArg (v10 (ix2 c k) + ·) ?_)
  simp only [Idealize.ShloMosaic.matmul]
  rw [Ideal.matmul_constant_zero_apply, ← Equiv.sum_comp (contrEquiv1 dot_S512x4096_S19x4096_S512x19_1_1_0_0_n_n 4096 rfl rfl).symm]
  refine Finset.sum_congr rfl fun u _ => ?_
  have hk := contrEquiv1_symm_val dot_S512x4096_S19x4096_S512x19_1_1_0_0_n_n 4096 rfl rfl u
  have el : dot_S512x4096_S19x4096_S512x19_1_1_0_0_n_n.lhsIdx (ix2 c k) ((contrEquiv1 dot_S512x4096_S19x4096_S512x19_1_1_0_0_n_n 4096 rfl rfl).symm u) = ix2 c u := funext fun a => Fin.ext (by
    match a with
    | ⟨0, _⟩ => exact lhs_0 _ _
    | ⟨1, _⟩ => exact (lhs_1 _ _).trans hk)
  have er : dot_S512x4096_S19x4096_S512x19_1_1_0_0_n_n.rhsIdx (ix2 c k) ((contrEquiv1 dot_S512x4096_S19x4096_S512x19_1_1_0_0_n_n 4096 rfl rfl).symm u) = ix2 k u := funext fun a => Fin.ext (by
    match a with
    | ⟨0, _⟩ => exact rhs_0 _ _
    | ⟨1, _⟩ => exact (rhs_1 _ _).trans hk)
  rw [el, er, truncf_apply, truncf_apply, shapeCast_1ab_ab_apply, shapeCast_1ab_ab_apply]

/-- The output block is the accumulator under a leading unit axis. -/
theorem pay3_apply (v18 : Vec Ideal S512x19 .f32) (u : Fin 1) (c : Fin 512) (k : Fin 19) :
    k0_pay3 (F := Ideal) v18 (ix3 u c k) = v18 (ix2 c k) := by
  unfold k0_pay3
  exact shapeCast_ab_1ab_apply _ _ u c k

end Cert.KernelIdeal.Payload

end
-- ==== Proof.KAccum.lean ====
import proofs.«130194_j24550033064496_2_alg».proof.Proof.Gen.KernelIdeal.Frame
import proofs.«130194_j24550033064496_2_alg».proof.Proof.KPieces
import proofs.«130194_j24550033064496_2_alg».proof.Proof.KPayload

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen
open scoped BigOperators

/-! The accumulator, point by point.

The grid runs over (batch b, spatial tile j), tile fastest: point n is batch n / 4, tile n mod 4, and tile j
holds the merged spatial positions 4096·j … 4096·j + 4095. After point n the accumulator holds, at (c, k),
the ordered sum ((0 + T₀) + T₁) + … + T_j of the contractions of the batch's tiles so far. -/

variable (m : (ℓ : Loc nD τ sig) → Buf (Elt Ideal) ℓ)

/-- Position u of spatial tile j, as a merged spatial position. -/
def pos (j : ℕ) (u : Fin 4096) : Fin 16384 := ⟨(4096 * j + u.val) % 16384, Nat.mod_lt _ (by decide)⟩

/-- The batch of grid point n. -/
def bat (n : ℕ) : Fin 8 := ⟨n / 4 % 8, Nat.mod_lt _ (by decide)⟩

/-- Tile j's contraction for batch b at (c, k). -/
def tileSum (X : S8x512x16384.Idx → EReal) (Pm : S8x19x16384.Idx → EReal) (b : Fin 8) (j : ℕ) (c : Fin 512) (k : Fin 19) : EReal :=
  ∑ u : Fin 4096, X (ix3 b c (pos j u)) * Pm (ix3 b k (pos j u))

/-- The ordered running sum over tiles 0 … j. -/
def partialSum (X : S8x512x16384.Idx → EReal) (Pm : S8x19x16384.Idx → EReal) (b : Fin 8) : ℕ → Fin 512 → Fin 19 → EReal
  | 0, c, k => 0 + tileSum X Pm b 0 c k
  | j + 1, c, k => partialSum X Pm b j c k + tileSum X Pm b (j + 1) c k

/-- The printed index maps, decided over the grid: both inputs' blocks sit at (batch, 0, tile), the output's at (batch, 0, 0). -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- The weight block of point t at (k, u) is the weight array at (batch, k, position u of the tile). -/
theorem iblk0_apply (c : Dev nD) (t : Fin cfg0.N) (k : Fin 19) (u : Fin 4096) :
    (iblk m c 0 t : Vec Ideal S1x19x4096 .f32) (ix3 (0 : Fin 1) k u) = V m c main_v6 (ix3 (bat t.val) k (pos (t.val % 4) u)) := by
  obtain ⟨e0, e1, e2, -⟩ := idx_facts t
  have hN : t.val < 32 := lt_of_lt_of_eq t.isLt N_0
  unfold iblk
  rw [View.read_apply]
  show V m c main_v6 (((cfg0.win 0).blk t).view.emb (ix3 (0 : Fin 1) k u)) = _
  refine congrArg (V m c main_v6) (funext fun a => Fin.ext ?_)
  match a with
  | ⟨0, _⟩ => show win0_0.index t (0 : Fin 3) * 1 + 1 * 0 = t.val / 4 % 8; omega
  | ⟨1, _⟩ => show win0_0.index t (1 : Fin 3) * 19 + 1 * k.val = k.val; omega
  | ⟨2, _⟩ => show win0_0.index t (2 : Fin 3) * 4096 + 1 * u.val = (4096 * (t.val % 4) + u.val) % 16384; have := u.isLt; omega

/-- The feature block of point t at (c', u) is the feature array at (batch, c', position u of the tile). -/
theorem iblk1_apply (c : Dev nD) (t : Fin cfg0.N) (cc : Fin 512) (u : Fin 4096) :
    (iblk m c 1 t : Vec Ideal S1x512x4096 .f32) (ix3 (0 : Fin 1) cc u) = V m c main_v1 (ix3 (bat t.val) cc (pos (t.val % 4) u)) := by
  obtain ⟨-, -, -, e0, e1, e2, -⟩ := idx_facts t
  have hN : t.val < 32 := lt_of_lt_of_eq t.isLt N_0
  unfold iblk
  rw [View.read_apply]
  show V m c main_v1 (((cfg0.win 1).blk t).view.emb (ix3 (0 : Fin 1) cc u)) = _
  refine congrArg (V m c main_v1) (funext fun a => Fin.ext ?_)
  match a with
  | ⟨0, _⟩ => show win0_1.index t (0 : Fin 3) * 1 + 1 * 0 = t.val / 4 % 8; omega
  | ⟨1, _⟩ => show win0_1.index t (1 : Fin 3) * 512 + 1 * cc.val = cc.val; omega
  | ⟨2, _⟩ => show win0_1.index t (2 : Fin 3) * 4096 + 1 * u.val = (4096 * (t.val % 4) + u.val) % 16384; have := u.isLt; omega

/-- One tile's update of an accumulator acc, read at (c', k): acc + the tile's contraction. -/
theorem update_apply (c : Dev nD) (t : Fin cfg0.N) (acc : Vec Ideal S512x19 .f32) (cc : Fin 512) (k : Fin 19) :
    k0_pay2 (F := Ideal) (iblk m c 0 t) (iblk m c 1 t) acc (ix2 cc k)
      = acc (ix2 cc k) + tileSum (V m c main_v1) (V m c main_v6) (bat t.val) (t.val % 4) cc k := by
  refine (Payload.pay2_apply (iblk m c 0 t) (iblk m c 1 t) acc cc k).trans (congrArg (acc (ix2 cc k) + ·) ?_)
  unfold tileSum
  refine Finset.sum_congr rfl fun u _ => ?_
  rw [iblk0_apply m c t k u, iblk1_apply m c t cc u]

/-- At a batch's first tile the accumulator ends at 0 + that tile's contraction. -/
theorem scratch_first (c : Dev nD) (t : Fin cfg0.N) (h0 : t.val % 4 = 0) (cc : Fin 512) (k : Fin 19) :
    (outsAt0 m c t.val t.isLt).2 (ix2 cc k) = 0 + tileSum (V m c main_v1) (V m c main_v6) (bat t.val) (t.val % 4) cc k := by
  have h1 : ¬t.val % 4 = 3 := by omega
  rw [outsAt0_A m c t h0 h1]
  dsimp only
  rw [Pieces.sout_A c (grid0.coords t) (ms0_0 t) (hs0_0 t) (ms0_1 t) (hs0_1 t) (ms0_2 t) (hs0_2 t) (Memref.isWhole_whole _)
    ((hcond0_0 t).mpr h0) (fun h => h1 ((hcond0_1 t).mp h)) (iblk m c 0 t) (iblk m c 1 t)]
  rw [update_apply m c t _ cc k, Payload.pay1_apply]

/-- At a later tile it ends at what the point before left plus that tile's contraction. -/
theorem scratch_next (c : Dev nD) (t : Fin cfg0.N) (h0 : ¬t.val % 4 = 0) (cc : Fin 512) (k : Fin 19) :
    (outsAt0 m c t.val t.isLt).2 (ix2 cc k)
      = (outsAt0 m c (t.val - 1) (Nat.lt_of_le_of_lt (Nat.sub_le _ _) t.isLt)).2 (ix2 cc k)
        + tileSum (V m c main_v1) (V m c main_v6) (bat t.val) (t.val % 4) cc k := by
  by_cases h1 : t.val % 4 = 3
  · rw [outsAt0_C m c t h0 h1]
    dsimp only
    rw [Pieces.sout_C c (grid0.coords t) (ms0_0 t) (hs0_0 t) (ms0_1 t) (hs0_1 t) (ms0_2 t) (hs0_2 t) (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2]
    exact update_apply m c t _ cc k
  · rw [outsAt0_B m c t h0 h1]
    dsimp only
    rw [Pieces.sout_B c (grid0.coords t) (ms0_0 t) (hs0_0 t) (ms0_1 t) (hs0_1 t) (ms0_2 t) (hs0_2 t) (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2]
    exact update_apply m c t _ cc k

/-- THE INVARIANT: after point n the accumulator is the ordered running sum of its batch's tiles 0 … n mod 4. -/
theorem scratch_eq (c : Dev nD) : ∀ (n : ℕ) (h : n < cfg0.N) (cc : Fin 512) (k : Fin 19),
    (outsAt0 m c n h).2 (ix2 cc k) = partialSum (V m c main_v1) (V m c main_v6) (bat n) (n % 4) cc k := by
  intro n
  induction n with
  | zero =>
    intro h cc k
    exact scratch_first m c ⟨0, h⟩ rfl cc k
  | succ n ih =>
    intro h cc k
    by_cases h0 : (n + 1) % 4 = 0
    · rw [scratch_first m c ⟨n + 1, h⟩ h0 cc k]
      show _ = partialSum _ _ _ ((n + 1) % 4) cc k
      rw [h0]
      rfl
    · rw [scratch_next m c ⟨n + 1, h⟩ h0 cc k]
      show (outsAt0 m c n _).2 (ix2 cc k) + _ = _
      rw [ih (Nat.lt_of_succ_lt h) cc k]
      have hb : bat (n + 1) = bat n := Fin.ext (by show (n + 1) / 4 % 8 = n / 4 % 8; omega)
      have hj : (n + 1) % 4 = n % 4 + 1 := by omega
      rw [hb, hj]
      rfl

/-- The ordered sum of the four tiles' contractions is the contraction over the whole merged spatial axis: addition on
    the extended reals is commutative and associative, and the positions 4096·j + u, j < 4, u < 4096, are all of them. -/
theorem partialSum_three (X : S8x512x16384.Idx → EReal) (Pm : S8x19x16384.Idx → EReal) (b : Fin 8) (c : Fin 512) (k : Fin 19) :
    partialSum X Pm b 3 c k = ∑ s : Fin 16384, X (ix3 b c s) * Pm (ix3 b k s) := by
  show ((0 + tileSum X Pm b 0 c k) + tileSum X Pm b 1 c k + tileSum X Pm b 2 c k) + tileSum X Pm b 3 c k = _
  rw [zero_add]
  have hp : ∀ (j : Fin 4) (u : Fin 4096), (finProdFinEquiv (j, u) : Fin 16384) = pos j.val u := fun j u =>
    Fin.ext (by show u.val + 4096 * j.val = (4096 * j.val + u.val) % 16384; have := j.isLt; have := u.isLt; omega)
  rw [← Equiv.sum_comp (finProdFinEquiv : Fin 4 × Fin 4096 ≃ Fin 16384) (fun s => X (ix3 b c s) * Pm (ix3 b k s)),
    Fintype.sum_prod_type, Fin.sum_univ_four]
  simp only [hp]
  rfl

end Cert.KernelIdeal.Accum

end
-- ==== Proof.KHost.lean ====
import proofs.«130194_j24550033064496_2_alg».proof.Proof.Gen.KernelIdeal.Frame
import proofs.«130194_j24550033064496_2_alg».proof.Proof.Target
import Idealize.ShloMosaic.Lib.StableHlo.Run
import Idealize.ShloMosaic.Lib.Tactic
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.HostSide

open Cert.KernelIdeal Cert.KernelIdeal.Gen Idealize.ShloMosaic.StableHlo

/-! The arrays the region finds: the host lines before the pallas_call merge the spatial axes of both arguments,
take each row's maximum, exponentiate the differences and sum them. -/

variable (m : (ℓ : Loc nD τ sig) → Buf (Elt Ideal) ℓ)

/-- The feature operand is the feature argument with its spatial axes merged. -/
theorem V_feats (c : Dev nD) :
    (V m c main_v1 : S8x512x16384.Idx → EReal) = Cert.Target.feats2 (m ((c : Thread nD τ).loc main_arg0)) := by
  show StableHlo.after hostOps0 (fun b => m (c, b)) (Proc.devRef .tc main_v1) = _
  after_results
  rfl

/-- The weight operand is the softmax numerator of the logits. -/
theorem V_weights (c : Dev nD) :
    (V m c main_v6 : S8x19x16384.Idx → EReal) = Cert.Target.weights (m ((c : Thread nD τ).loc main_arg1)) := by
  show StableHlo.after hostOps0 (fun b => m (c, b)) (Proc.devRef .tc main_v6) = _
  after_results
  rfl

/-- The row sums of the numerator. -/
theorem V_mass (c : Dev nD) :
    (V m c main_v7 : S8x19.Idx → EReal) = Cert.Target.mass (m ((c : Thread nD τ).loc main_arg1)) := by
  show StableHlo.after hostOps0 (fun b => m (c, b)) (Proc.devRef .tc main_v7) = _
  after_results
  rfl

/-- The lines after the region: the accumulated array R is divided by the row sums, broadcast over the channels,
    and given a trailing unit axis. -/
theorem tail_eq (c : Dev nD) (R : S8x512x19.Idx → EReal) (hR : (dats m 0 c).arrAt 2 cfg0.N = R) :
    Pipeline.afterTail₀ cfgs (dats m) 0 (V0 m) [hostOps1] c main_v12
      = broadcastInDim S8x512x19x1 ![0, 1, 2] bcast_S8x512x19_S8x512x19x1_0_1_2
          (Host.divf (F := Ideal) (φ := .f32) R
            (broadcastInDim S8x512x19 ![0, 1, 2] bcast_S8x1x19_S8x512x19_0_1_2
              (broadcastInDim S8x1x19 ![0, 2] bcast_S8x19_S8x1x19_0_2 (V m c main_v7 : S8x19.Idx → EReal)))) := by
  unfold Pipeline.afterTail₀
  show StableHlo.after hostOps1 _ (Proc.devRef .tc main_v12) = _
  after_results
  have e8 : Pipeline.withArrays (cfgs 0).spec c (V0 m c) (fun w => (dats m 0 c).arrAt w (cfgs 0).N) (Proc.devRef .tc main_v8) = R :=
    (Pipeline.withArrays_arr spec0 launch0.win.arr_inj c _ _ 2).trans hR
  have e7 : Pipeline.withArrays (cfgs 0).spec c (V0 m c) (fun w => (dats m 0 c).arrAt w (cfgs 0).N) (Proc.devRef .tc main_v7) = V m c main_v7 :=
    Pipeline.withArrays_of_ne _ c (V0 m c) _ main_v7 (by exact (by decide : ∀ w, Pipeline.arrRef spec0 w ≠ main_v7))
  rw [e8, e7]

/-- That term at an index (b, c', k, 0): R (b, c', k) / L (b, k). -/
theorem tail_apply (R : S8x512x19.Idx → EReal) (L : S8x19.Idx → EReal) (i : S8x512x19x1.Idx) :
    broadcastInDim S8x512x19x1 ![0, 1, 2] bcast_S8x512x19_S8x512x19x1_0_1_2
        (Host.divf (F := Ideal) (φ := .f32) R
          (broadcastInDim S8x512x19 ![0, 1, 2] bcast_S8x1x19_S8x512x19_0_1_2
            (broadcastInDim S8x1x19 ![0, 2] bcast_S8x19_S8x1x19_0_2 L))) i
      = Ideal.div (R (ValueIdx.ix3 (i 0) (i 1) (i 2))) (L (ValueIdx.ix2 (i 0) (i 2))) := by
  rw [broadcastInDim_apply _ bcast_S8x512x19_S8x512x19x1_0_1_2 _ i (ValueIdx.ix3 (i 0) (i 1) (i 2)) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show (i 2).val = if (19 : Nat) = 1 then 0 else (i 2).val; rw [if_neg (by decide)])]
  show Ideal.div (R (ValueIdx.ix3 (i 0) (i 1) (i 2))) _ = _
  refine congrArg (Ideal.div (R (ValueIdx.ix3 (i 0) (i 1) (i 2)))) ?_
  rw [broadcastInDim_apply _ bcast_S8x1x19_S8x512x19_0_1_2 _ (ValueIdx.ix3 (i 0) (i 1) (i 2)) (ValueIdx.ix3 (i 0) (0 : Fin 1) (i 2)) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (19 : Nat) = 1 then 0 else (i 2).val; rw [if_neg (by decide)])]
  exact broadcastInDim_apply _ bcast_S8x19_S8x1x19_0_2 L (ValueIdx.ix3 (i 0) (0 : Fin 1) (i 2)) (ValueIdx.ix2 (i 0) (i 2)) (fun a => match a with
    | ⟨0, _⟩ => by show (i 0).val = if (8 : Nat) = 1 then 0 else (i 0).val; rw [if_neg (by decide)]
    | ⟨1, _⟩ => by show (i 2).val = if (19 : Nat) = 1 then 0 else (i 2).val; rw [if_neg (by decide)])

end Cert.KernelIdeal.HostSide

end
-- ==== Proof.KValue.lean ====
import proofs.«130194_j24550033064496_2_alg».proof.Proof.Gen.KernelIdeal.Frame
import proofs.«130194_j24550033064496_2_alg».proof.Proof.Target
import proofs.«130194_j24550033064496_2_alg».proof.Proof.KAccum
import proofs.«130194_j24550033064496_2_alg».proof.Proof.KHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen
open scoped BigOperators

/-! The kernel's result, whole.

The output block of batch b is written back once, after the batch's last tile, holding the accumulator — the
contraction over all of the merged spatial axis. The eight blocks tile the [8, 512, 19] array, and the host lines
after the region divide it by the row sums: the pooled features. -/

variable (m : (ℓ : Loc nD τ sig) → Buf (Elt Ideal) ℓ) (ρ : Dev nD → PrngReg)

/-- The accumulated array: the contraction over the merged spatial axis at every (b, c', k). -/
def rawArr (c : Dev nD) : S8x512x19.Idx → EReal :=
  fun i => Cert.Target.raw (V m c main_v1) (V m c main_v6) (i 0) (i 1) (i 2)

/-- What a batch's last point writes back is that batch's block of the accumulated array. -/
theorem flushed_eq (c : Dev nD) (t : Fin cfg0.N) (hf : (cfg0.win 2).flush t = true) :
    (dats m 0 c).flushed 2 t = ((cfg0.win 2).blk t).view.read (Elt Ideal) (rawArr m c) := by
  have h3 : t.val % 4 = 3 := (flush0_2 t).mp hf
  have h0 : ¬t.val % 4 = 0 := by omega
  have hN : t.val < 32 := lt_of_lt_of_eq t.isLt N_0
  obtain ⟨-, -, -, -, -, -, e0, e1, e2⟩ := Accum.idx_facts t
  show (cfg0.win 2).cut (grid0.coords t) ((dats m 0 c).after 2 t) = _
  rw [after0_2, outsAt0_C m c t h0 h3]
  dsimp only
  rw [Pieces.out_C c (grid0.coords t) (ms0_0 t) (hs0_0 t) (ms0_1 t) (hs0_1 t) (ms0_2 t) (hs0_2 t) (Memref.isWhole_whole _)
    (fun h => h0 ((hcond0_0 t).mp h)) ((hcond0_1 t).mpr h3) (iblk m c 0 t) (iblk m c 1 t)
    (outsAt0 m c (t.val - 1) (Nat.lt_of_le_of_lt (Nat.sub_le _ _) t.isLt)).2]
  have hX : ∀ (u : Fin 1) (cc : Fin 512) (k : Fin 19),
      k0_pay3 (F := Ideal) (k0_pay2 (F := Ideal) (iblk m c 0 t) (iblk m c 1 t)
          (outsAt0 m c (t.val - 1) (Nat.lt_of_le_of_lt (Nat.sub_le _ _) t.isLt)).2) (ix3 u cc k)
        = Cert.Target.raw (V m c main_v1) (V m c main_v6) (Accum.bat t.val) cc k := by
    intro u cc k
    rw [Payload.pay3_apply, Accum.update_apply m c t _ cc k, ← Accum.scratch_next m c t h0 cc k,
      Accum.scratch_eq m c t.val t.isLt cc k, h3]
    exact Accum.partialSum_three _ _ _ _ _
  generalize k0_pay3 (F := Ideal) (k0_pay2 (F := Ideal) (iblk m c 0 t) (iblk m c 1 t)
      (outsAt0 m c (t.val - 1) (Nat.lt_of_le_of_lt (Nat.sub_le _ _) t.isLt)).2) = X at hX ⊢
  funext y
  rw [View.read_apply]
  obtain ⟨u, cc, k, hy⟩ : ∃ (u : Fin 1) (cc : Fin 512) (k : Fin 19), (cfg0.win 2).xinj (grid0.coords t) y = ix3 u cc k :=
    ⟨_, _, _, eq_ix3 _⟩
  have y0 : (y 0).val = u.val := congrArg (fun f : S1x512x19.Idx => (f 0).val) hy
  have y1 : (y 1).val = cc.val := congrArg (fun f : S1x512x19.Idx => (f 1).val) hy
  have y2 : (y 2).val = k.val := congrArg (fun f : S1x512x19.Idx => (f 2).val) hy
  have hu : u.val = 0 := by omega
  have a0 : (((cfg0.win 2).blk t).view.emb y) 0 = Accum.bat t.val :=
    Fin.ext (by show win0_2.index t (0 : Fin 3) * 1 + 1 * (y 0).val = t.val / 4 % 8; omega)
  have a1 : (((cfg0.win 2).blk t).view.emb y) 1 = cc :=
    Fin.ext (by show win0_2.index t (1 : Fin 3) * 512 + 1 * (y 1).val = cc.val; omega)
  have a2 : (((cfg0.win 2).blk t).view.emb y) 2 = k :=
    Fin.ext (by show win0_2.index t (2 : Fin 3) * 19 + 1 * (y 2).val = k.val; omega)
  have hR : rawArr m c (((cfg0.win 2).blk t).view.emb y)
      = Cert.Target.raw (V m c main_v1) (V m c main_v6) ((((cfg0.win 2).blk t).view.emb y) 0)
        ((((cfg0.win 2).blk t).view.emb y) 1) ((((cfg0.win 2).blk t).view.emb y) 2) := rfl
  rw [hR, a0, a1, a2, ← hX u cc k, ← hy]
  rfl

/-- Every index of the array lies in the block its batch's last point writes back. -/
theorem covered (i : S8x512x19.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 19 := (i 2).isLt
  have hN : cfg0.N = 32 := N_0
  let t : Fin cfg0.N := ⟨4 * (i 0).val + 3, by omega⟩
  have ht : t.val = 4 * (i 0).val + 3 := rfl
  obtain ⟨-, -, -, -, -, -, e0, e1, e2⟩ := Accum.idx_facts t
  refine ⟨t, (flush0_2 t).mpr (by omega), ?_⟩
  show i ∈ ((View.whole main_v8).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 19 ≤ (i 2).val ∧ (i 2).val < win0_2.index t (2 : Fin 3) * 19 + 19; omega

/-- So the region leaves the accumulated array. -/
theorem final (c : Dev nD) : (dats m 0 c).arrAt 2 cfg0.N = rawArr m c :=
  (dats m 0 c).arrAt_eq_of_cover 2 (rawArr m c) (flushed_eq m c) covered

/-- The program's result is the pooled features of the two arguments. -/
theorem result_eq (c : Dev nD) :
    Pipeline.afterTail₀ cfgs (dats m) 0 (V0 m) [hostOps1] c main_v12
      = Cert.Target.pooled (m ((c : Thread nD τ).loc main_arg0)) (m ((c : Thread nD τ).loc main_arg1)) := by
  rw [HostSide.tail_eq m c (rawArr m c) (final m c)]
  funext i
  rw [HostSide.tail_apply]
  unfold rawArr Cert.Target.pooled
  rw [HostSide.V_feats, HostSide.V_weights, HostSide.V_mass]

/-- The run, read: the result at the pooled features, the arguments unchanged. -/
theorem run : θ_run defs (onTc (τ := τ) (main (F := Ideal))) ⟨m, fun _ => 0, ρ⟩ fun r => ∀ c : Dev nD,
      r.2.mem ((c.tc : Thread nD τ).loc main_v12) = Cert.Target.pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.Finite.lean ====
/-
  From the finiteness precondition to "every entry is a real number".

  The precondition states, for each argument array x, that  |x i| < +∞  holds at every index i
  (the conjunction over all indices equals 1). On the extended reals |x| = max x (−x), and
  max x (−x) < +∞ excludes both infinities: x = +∞ gives max = +∞, and x = −∞ gives −x = +∞.
  What is left is the image of a real number.
-/
import proofs.«130194_j24550033064496_2_alg».proof.Pre_finite_inputs
import proofs.«130194_j24550033064496_2_alg».proof.Proof.LibMeanAggregate
import Idealize.ShloMosaic.Lib.ReduceAll
import Idealize.ShloMosaic.Lib.ValueIdx

noncomputable section

namespace Cert.Finite

open Idealize.ShloMosaic Cert.Lib.MeanAggregate

/-- The rank-0 shape has exactly one index. -/
instance : Subsingleton Cert.Pre_finite_inputs.S_.Idx := ⟨fun a b => funext fun d => d.elim0⟩

/-- The bit pattern 0x7F800000 denotes +∞. -/
theorem ofBits_pos_inf : Ideal.ofBits .f32 0x7F800000#32 = (⊤ : EReal) := by
  simp [Ideal.ofBits, Ideal.ieee]

/-- An extended real whose absolute value max x (−x) compares strictly below +∞ is real. -/
theorem isReal_of_abs_lt (x : EReal)
    (h : Ideal.cmp .olt (max x (-x)) (Ideal.ofBits .f32 0x7F800000#32) = 1#1) : IsReal x := by
  rw [ofBits_pos_inf] at h
  induction x using EReal.rec with
  | bot => exact absurd h (by simp [Ideal.cmp])
  | coe r => exact ⟨r, rfl⟩
  | top => exact absurd h (by simp [Ideal.cmp])

theorem real_of_pre [Cert.Pre_finite_inputs.Facts] (x0 : FVec Ideal Cert.Pre_finite_inputs.S8x512x128x128 .f32) (x1 : FVec Ideal Cert.Pre_finite_inputs.S8x19x128x128 .f32)
    (h : Cert.Pre_finite_inputs.fn (F := Ideal) x0 x1 = fun _ => 1#1) :
    (∀ i, Cert.Lib.MeanAggregate.IsReal (x0 i)) ∧ (∀ i, Cert.Lib.MeanAggregate.IsReal (x1 i)) := by
  have h' := congrFun h ValueIdx.ix0
  dsimp only [Cert.Pre_finite_inputs.fn] at h'
  obtain ⟨ha, hb⟩ := IntOp.andi_eq_one.1 h'
  refine ⟨fun i => ?_, fun i => ?_⟩
  · have e := Host.reduce_andi_all _ _ _ _ _ ha i
    exact isReal_of_abs_lt (x0 i) e
  · have e := Host.reduce_andi_all _ _ _ _ _ hb i
    exact isReal_of_abs_lt (x1 i) e

end Cert.Finite

end
-- ==== Proof.LibSoftmaxReal.lean ====
/-
  Extended-real facts for a softmax: realness and positivity of its pieces, and the law that lets the
  normalisation move across a contraction.

  For a row of real logits a, the row maximum M (a fold of max from −∞ over a nonempty index set) is real; each
  numerator exp (a − M) is a positive real; and for real f, p and a real nonzero l,
      ∑ᵢ (pᵢ / l) · fᵢ = (∑ᵢ fᵢ · pᵢ) / l,
  which fails at the infinities. Built on the predicate IsReal of the mean-aggregation algebra.
-/
import proofs.«130194_j24550033064496_2_alg».proof.Proof.LibMeanAggregate
import Idealize.ShloMosaic.PureOps.Ideal
import Idealize.ShloMosaic.PureOps.ShapeOps
import Mathlib.Tactic.Ring

noncomputable section

namespace Cert.Lib.SoftmaxReal

open Idealize.ShloMosaic Cert.Lib.MeanAggregate
open scoped BigOperators

/-- Normalising before a contraction equals normalising after it, when every entry is real and
    the normaliser is a nonzero real:  ∑ᵢ (pᵢ / l) · fᵢ = (∑ᵢ fᵢ · pᵢ) / l. -/
theorem sum_div_mul {ι : Type} [Fintype ι] {f p : ι → EReal} {l : EReal}
    (hf : ∀ i, IsReal (f i)) (hp : ∀ i, IsReal (p i)) (hl : IsReal l) (h0 : l ≠ 0) :
    ∑ i, Ideal.div (p i) l * f i = Ideal.div (∑ i, f i * p i) l := by
  choose f' hf' using hf
  choose p' hp' using hp
  obtain ⟨b, rfl⟩ := hl
  have hb : b ≠ 0 := by
    rintro rfl
    exact h0 rfl
  obtain rfl : f = fun i => ((f' i : ℝ) : EReal) := funext hf'
  obtain rfl : p = fun i => ((p' i : ℝ) : EReal) := funext hp'
  simp only [Ideal.div_coe hb, ← EReal.coe_mul, sum_coe]
  refine congrArg _ ?_
  rw [Finset.sum_mul]
  refine Finset.sum_congr rfl fun i _ => ?_
  ring

/-- The maximum, from −∞, of a nonempty finite family of reals is real: it is at least one of
    them, so it is not −∞, and it is below +∞ because −∞ and every member are. -/
theorem isReal_fold_max {ι : Type} [Fintype ι] [Nonempty ι] (g : ι → EReal) (hg : ∀ k, IsReal (g k)) :
    IsReal ((Finset.univ : Finset ι).fold max (⊥ : EReal) g) := by
  obtain ⟨k0⟩ := (inferInstance : Nonempty ι)
  have hlo : g k0 ≤ (Finset.univ : Finset ι).fold max (⊥ : EReal) g :=
    (Finset.le_fold_max _).2 (Or.inr ⟨k0, Finset.mem_univ _, le_rfl⟩)
  have hhi : (Finset.univ : Finset ι).fold max (⊥ : EReal) g < ⊤ :=
    (Finset.fold_max_lt _).2 ⟨bot_lt_top, fun k _ => by
      obtain ⟨r, hr⟩ := hg k
      rw [hr]
      exact EReal.coe_lt_top r⟩
  obtain ⟨r0, hr0⟩ := hg k0
  rw [hr0] at hlo
  generalize (Finset.univ : Finset ι).fold max (⊥ : EReal) g = m at hlo hhi
  induction m using EReal.rec with
  | bot => exact absurd hlo (not_le.2 (EReal.bot_lt_coe r0))
  | coe r => exact ⟨r, rfl⟩
  | top => exact absurd hhi (lt_irrefl _)

/-- The exponential of a difference of two reals is a positive real. -/
theorem exp_sub_pos {a m : EReal} (ha : IsReal a) (hm : IsReal m) :
    ∃ r : ℝ, 0 < r ∧ Ideal.exp (a - m) = (r : EReal) := by
  obtain ⟨a', rfl⟩ := ha
  obtain ⟨m', rfl⟩ := hm
  refine ⟨Real.exp (a' - m'), Real.exp_pos _, ?_⟩
  rw [← EReal.coe_sub, Ideal.exp_coe]

/-- The bit pattern 0xFF800000 denotes −∞. -/
theorem ofBits_neg_inf : Ideal.ofBits .f32 0xFF800000#32 = (⊥ : EReal) := by
  simp [Ideal.ofBits, Ideal.ieee]

/-- A broadcast of an array of reals is an array of reals: each entry is an entry of the operand. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := by
  unfold broadcastInDim
  exact hx _

end Cert.Lib.SoftmaxReal

end
-- ==== Proof.RefPooled.lean ====
/-
  The reference program computes the pooled features.

  The reference normalises first and contracts second:
    out (b, c, k, 0) = ∑ over s of (p' (b, k, s) / l' (b, k)) · feats (b, c, s),
  where p' subtracts max (−∞, M (b, k)) instead of the row maximum M (b, k). Three steps bring
  this to the specification  (∑ over s of feats (b, c, s) · p (b, k, s)) / l (b, k):

    * max (−∞, M) = M, so p' = p and l' = l as whole arrays;
    * when every argument entry is real, M is real (it is at least one real entry and below +∞),
      every weight p is a positive real, and the mass l is a positive real, hence real and
      nonzero;
    * for real f, p and a real nonzero l,  ∑ (p / l) · f = (∑ f · p) / l : both sides are the
      image of the same real number.
-/
import proofs.«130194_j24550033064496_2_alg».proof.Proof.Gen.ReferenceIdeal.Read
import proofs.«130194_j24550033064496_2_alg».proof.Proof.Target
import proofs.«130194_j24550033064496_2_alg».proof.Proof.LibMeanAggregate
import proofs.«130194_j24550033064496_2_alg».proof.Proof.LibSoftmaxReal
import Idealize.ShloMosaic.PureOps.Reduce

noncomputable section

namespace Cert.RefPooled

open Idealize.ShloMosaic Idealize.ShloMosaic.ValueIdx Cert.Lib.MeanAggregate Cert.Lib.SoftmaxReal
open scoped BigOperators

/-! ## The reference's arrays are the specification's -/

section Arrays

variable [Cert.KernelIdeal.Facts] [Cert.ReferenceIdeal.Facts]

/-- The extra maximum against −∞ changes nothing: max (−∞, M) = M. -/
theorem rowMax_eq (x1 : FVec Ideal Cert.KernelIdeal.S8x19x128x128 .f32) :
    Cert.ReferenceIdeal.Read.val_main_v3 (F := Ideal) x1 = Cert.Target.rowMax x1 := by
  funext j
  rw [Cert.ReferenceIdeal.Read.val_main_v3_apply, Cert.ReferenceIdeal.Read.val_main_v2_apply,
    Cert.ReferenceIdeal.Read.val_main_cst_0_apply]
  show max (Ideal.ofBits .f32 0xFF800000#32) (Cert.ReferenceIdeal.Read.val_main_v1 (F := Ideal) x1 j) = _
  rw [ofBits_neg_inf, max_eq_right bot_le]
  rfl

/-- The reference's softmax numerator is the specification's weights. -/
theorem weights_eq (x1 : FVec Ideal Cert.KernelIdeal.S8x19x128x128 .f32) :
    Cert.ReferenceIdeal.Read.val_main_v7 (F := Ideal) x1 = Cert.Target.weights x1 := by
  unfold Cert.ReferenceIdeal.Read.val_main_v7 Cert.ReferenceIdeal.Read.val_main_v6
    Cert.ReferenceIdeal.Read.val_main_v5 Cert.ReferenceIdeal.Read.val_main_v4 Cert.Target.weights
  rw [rowMax_eq]
  rfl

/-- The reference's softmax denominator is the specification's mass. -/
theorem mass_eq (x1 : FVec Ideal Cert.KernelIdeal.S8x19x128x128 .f32) :
    Cert.ReferenceIdeal.Read.val_main_v8 (F := Ideal) x1 = Cert.Target.mass x1 := by
  unfold Cert.ReferenceIdeal.Read.val_main_v8 Cert.Target.mass
  rw [weights_eq]
  rfl

/-- The reference's merged feature array is the specification's. -/
theorem feats2_eq (x0 : FVec Ideal Cert.KernelIdeal.S8x512x128x128 .f32) :
    Cert.ReferenceIdeal.Read.val_main_v12 (F := Ideal) x0 = Cert.Target.feats2 x0 := rfl

/-! ## Every intermediate entry is real -/

/-- Merging axes moves entries, so the merged logits are real. -/
theorem aux2_real (x1 : FVec Ideal Cert.KernelIdeal.S8x19x128x128 .f32) (h1 : ∀ i, IsReal (x1 i))
    (i : Cert.KernelIdeal.S8x19x16384.Idx) : IsReal (Cert.Target.aux2 x1 i) := by
  have e : Cert.Target.aux2 x1 i = x1 (Cert.ReferenceIdeal.Read.idx_main_v0 i) :=
    Cert.ReferenceIdeal.Read.val_main_v0_apply (F := Ideal) x1 i
  rw [e]
  exact h1 _

/-- Merging axes moves entries, so the merged features are real. -/
theorem feats2_real (x0 : FVec Ideal Cert.KernelIdeal.S8x512x128x128 .f32) (h0 : ∀ i, IsReal (x0 i))
    (i : Cert.KernelIdeal.S8x512x16384.Idx) : IsReal (Cert.Target.feats2 x0 i) := by
  have e : Cert.Target.feats2 x0 i = x0 (Cert.ReferenceIdeal.Read.idx_main_v12 i) :=
    Cert.ReferenceIdeal.Read.val_main_v12_apply (F := Ideal) x0 i
  rw [e]
  exact h0 _

/-- Each row maximum is real: the row has 16384 real entries. -/
theorem rowMax_real (x1 : FVec Ideal Cert.KernelIdeal.S8x19x128x128 .f32) (h1 : ∀ i, IsReal (x1 i))
    (j : Cert.KernelIdeal.S8x19.Idx) : IsReal (Cert.Target.rowMax x1 j) := by
  have hred : Cert.KernelIdeal.S8x19x16384.Reduces [2] Cert.KernelIdeal.S8x19 := by decide
  unfold Cert.Target.rowMax
  rw [Host.reduce_eq_fold_single (FloatOps.maximumf (F := Ideal) (φ := .f32)) (Cert.Target.aux2 x1) _ _ hred _ j]
  show IsReal ((Finset.univ : Finset (Fin 16384)).fold max (Ideal.ofBits .f32 0xFF800000#32)
    (Cert.Target.aux2 x1 ∘ hred.lift j))
  rw [ofBits_neg_inf]
  exact isReal_fold_max (ι := Fin 16384) _ (fun k => aux2_real x1 h1 _)

/-- Each weight is a positive real: the exponential of a real logit minus the real row maximum. -/
theorem weights_pos (x1 : FVec Ideal Cert.KernelIdeal.S8x19x128x128 .f32) (h1 : ∀ i, IsReal (x1 i))
    (i : Cert.KernelIdeal.S8x19x16384.Idx) : ∃ r : ℝ, 0 < r ∧ Cert.Target.weights x1 i = (r : EReal) := by
  unfold Cert.Target.weights
  exact exp_sub_pos (aux2_real x1 h1 i)
    (isReal_broadcastInDim _ _ _ (isReal_broadcastInDim _ _ _ (rowMax_real x1 h1)) i)

theorem weights_real (x1 : FVec Ideal Cert.KernelIdeal.S8x19x128x128 .f32) (h1 : ∀ i, IsReal (x1 i))
    (i : Cert.KernelIdeal.S8x19x16384.Idx) : IsReal (Cert.Target.weights x1 i) := by
  obtain ⟨r, _, hr⟩ := weights_pos x1 h1 i
  exact ⟨r, hr⟩

/-- Each mass is a positive real: zero plus a sum of 16384 positive reals. -/
theorem mass_pos (x1 : FVec Ideal Cert.KernelIdeal.S8x19x128x128 .f32) (h1 : ∀ i, IsReal (x1 i))
    (j : Cert.KernelIdeal.S8x19.Idx) : ∃ r : ℝ, 0 < r ∧ Cert.Target.mass x1 j = (r : EReal) := by
  choose w hw using weights_pos x1 h1
  refine ⟨∑ k : Fin 16384, w (Cert.ReferenceIdeal.Read.idx_main_v8 j k),
    Finset.sum_pos (fun k _ => (hw _).1) Finset.univ_nonempty, ?_⟩
  rw [← mass_eq, Cert.ReferenceIdeal.Read.val_main_v8_apply, Cert.ReferenceIdeal.Read.val_main_cst_1_apply,
    weights_eq]
  show Ideal.ofBits .f32 0x00000000#32 + _ = _
  rw [Ideal.ofBits_zero_f32, zero_add, ← sum_coe]
  exact Finset.sum_congr rfl fun k _ => (hw _).2

/-- One term of the reference's contraction, at explicit coordinates: the normalised weight times
    the feature. -/
theorem term_eq (x0 : FVec Ideal Cert.KernelIdeal.S8x512x128x128 .f32)
    (x1 : FVec Ideal Cert.KernelIdeal.S8x19x128x128 .f32) (b : Fin 8) (c : Fin 512) (k : Fin 19) (s : Fin 16384) :
    Cert.ReferenceIdeal.Read.val_main_v11 (F := Ideal) x1 (ix3 b k s)
        * Cert.ReferenceIdeal.Read.val_main_v12 (F := Ideal) x0 (ix3 b c s)
      = Ideal.div (Cert.Target.weights x1 (ix3 b k s)) (Cert.Target.mass x1 (ix2 b k))
        * Cert.Target.feats2 x0 (ix3 b c s) := by
  have hm : Cert.ReferenceIdeal.Read.idx_main_v9 (Cert.ReferenceIdeal.Read.idx_main_v10 (ix3 b k s)) = ix2 b k :=
    funext fun a => Fin.ext (by match a with | ⟨0, _⟩ => rfl | ⟨1, _⟩ => rfl)
  rw [Cert.ReferenceIdeal.Read.val_main_v11_apply, Cert.ReferenceIdeal.Read.val_main_v10_apply,
    Cert.ReferenceIdeal.Read.val_main_v9_apply, hm, weights_eq, mass_eq, feats2_eq]
  rfl

end Arrays

/-! ## The reference is the specification -/

theorem ref_eq_pooled [Cert.KernelIdeal.Facts] [Cert.ReferenceIdeal.Facts]
    (x0 : FVec Ideal Cert.KernelIdeal.S8x512x128x128 .f32) (x1 : FVec Ideal Cert.KernelIdeal.S8x19x128x128 .f32)
    (h0 : ∀ i, IsReal (x0 i)) (h1 : ∀ i, IsReal (x1 i)) :
    Cert.ReferenceIdeal.Read.val_main_v15 (F := Ideal) x0 x1 = Cert.Target.pooled x0 x1 := by
  funext i
  rw [Cert.ReferenceIdeal.Read.val_main_v15_apply, Cert.ReferenceIdeal.Read.val_main_v14_apply,
    Cert.ReferenceIdeal.Read.val_main_v13_apply]
  have hl : ∀ k : Fin 16384, Cert.ReferenceIdeal.Read.lidx_main_v13
      (Cert.ReferenceIdeal.Read.idx_main_v14 (Cert.ReferenceIdeal.Read.idx_main_v15 i)) k
        = ix3 (i 0 : Fin 8) (i 2 : Fin 19) k :=
    fun k => funext fun a => Fin.ext (by match a with | ⟨0, _⟩ => rfl | ⟨1, _⟩ => rfl | ⟨2, _⟩ => rfl)
  have hr : ∀ k : Fin 16384, Cert.ReferenceIdeal.Read.ridx_main_v13
      (Cert.ReferenceIdeal.Read.idx_main_v14 (Cert.ReferenceIdeal.Read.idx_main_v15 i)) k
        = ix3 (i 0 : Fin 8) (i 1 : Fin 512) k :=
    fun k => funext fun a => Fin.ext (by match a with | ⟨0, _⟩ => rfl | ⟨1, _⟩ => rfl | ⟨2, _⟩ => rfl)
  have e : ∀ k : Fin 16384,
      Cert.ReferenceIdeal.Read.val_main_v11 (F := Ideal) x1 (Cert.ReferenceIdeal.Read.lidx_main_v13
          (Cert.ReferenceIdeal.Read.idx_main_v14 (Cert.ReferenceIdeal.Read.idx_main_v15 i)) k)
        * Cert.ReferenceIdeal.Read.val_main_v12 (F := Ideal) x0 (Cert.ReferenceIdeal.Read.ridx_main_v13
          (Cert.ReferenceIdeal.Read.idx_main_v14 (Cert.ReferenceIdeal.Read.idx_main_v15 i)) k)
      = Ideal.div (Cert.Target.weights x1 (ix3 (i 0 : Fin 8) (i 2 : Fin 19) k))
          (Cert.Target.mass x1 (ix2 (i 0 : Fin 8) (i 2 : Fin 19)))
        * Cert.Target.feats2 x0 (ix3 (i 0 : Fin 8) (i 1 : Fin 512) k) := by
    intro k
    rw [hl k, hr k]
    exact term_eq x0 x1 (i 0) (i 1) (i 2) k
  rw [Finset.sum_congr rfl (fun k _ => e k)]
  obtain ⟨r, hr0, hre⟩ := mass_pos x1 h1 (ix2 (i 0 : Fin 8) (i 2 : Fin 19))
  exact sum_div_mul (fun k => feats2_real x0 h0 _) (fun k => weights_real x1 h1 _) ⟨r, hre⟩
    (by rw [hre]; exact ne_of_gt (EReal.coe_pos.2 hr0))

end Cert.RefPooled

end
-- ==== Proof.lean ====
/-
  Attention-weighted spatial pooling: the kernel against its jnp reference, over the extended reals.

  Both programs take feats f32[8, 512, 128, 128] and logits aux f32[8, 19, 128, 128], merge the two spatial axes
  (s = 128·h + w) and compute, for a batch b, a channel c and a class k,
      out (b, c, k, 0) = ∑ₛ feats (b, c, s) · softmax over s of aux (b, k, ·) at s.
  The kernel keeps the softmax UNNORMALISED: on the host it forms p = exp (aux − rowmax) and the row sums l, a grid
  of (batch, spatial tile) points accumulates r (b, c, k) = ∑ₛ feats (b, c, s) · p (b, k, s) tile by tile in a
  scratch block (zeroed at a batch's first tile, copied out at its last), and the host divides r by l afterwards.
  The reference normalises first, p / l, and contracts afterwards (an einsum, a transpose, a trailing unit axis).

  Over the extended reals the tile-by-tile accumulation is the one sum over s (addition is commutative and
  associative, the four tiles are all the positions), the roundings to bf16 are the identity, and the reference's
  extra maximum against −∞ changes nothing. What is left is moving the division across the sum,
      ∑ₛ (p (s) / l) · f (s) = (∑ₛ f (s) · p (s)) / l,
  which fails at the infinities and holds when every f (s), p (s) and l is real and l ≠ 0: the precondition makes
  every input finite, so every row maximum is real, every p (s) = exp (real) is a positive real, and l, a sum of
  16384 of them, is a positive real.

  The modules: Target (the pooled features as one function of the arguments), KPieces / KPayload / KAccum / KHost /
  KValue (the kernel's run ends at it), Finite (the precondition makes every entry real), RefPooled (the
  reference's result is it, for real entries), and the claims below.
-/
import proofs.«130194_j24550033064496_2_alg».proof.Defs
import proofs.«130194_j24550033064496_2_alg».proof.Proof.Gen.Kernel
import proofs.«130194_j24550033064496_2_alg».proof.Proof.Gen.Kernel.Skeleton
import proofs.«130194_j24550033064496_2_alg».proof.Proof.Gen.Kernel.Launch
import proofs.«130194_j24550033064496_2_alg».proof.Proof.Gen.Kernel.Points
import proofs.«130194_j24550033064496_2_alg».proof.Proof.Gen.Kernel.Frame
import proofs.«130194_j24550033064496_2_alg».proof.Proof.Gen.KernelIdeal
import proofs.«130194_j24550033064496_2_alg».proof.Proof.Gen.KernelIdeal.Skeleton
import proofs.«130194_j24550033064496_2_alg».proof.Proof.Gen.KernelIdeal.Launch
import proofs.«130194_j24550033064496_2_alg».proof.Proof.Gen.KernelIdeal.Points
import proofs.«130194_j24550033064496_2_alg».proof.Proof.Gen.KernelIdeal.Frame
import proofs.«130194_j24550033064496_2_alg».proof.Proof.Gen.ReferenceIdeal
import proofs.«130194_j24550033064496_2_alg».proof.Proof.Gen.ReferenceIdeal.Run
import proofs.«130194_j24550033064496_2_alg».proof.Proof.Gen.ReferenceIdeal.Read
import proofs.«130194_j24550033064496_2_alg».proof.Proof.Gen.Pre_finite_inputs
import proofs.«130194_j24550033064496_2_alg».proof.Proof.KValue
import proofs.«130194_j24550033064496_2_alg».proof.Proof.Finite
import proofs.«130194_j24550033064496_2_alg».proof.Proof.RefPooled
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the pooled features of the (agreeing, finite) arguments. -/
theorem algebraic : Cert.algebraic_KernelIdeal_ReferenceIdeal := by
  intro m ρ m' ρ' hpre hagree
  refine ⟨fun c => Cert.Target.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  obtain ⟨r0, r1⟩ := Cert.Finite.real_of_pre _ _ (hpre c)
  exact Cert.RefPooled.ref_eq_pooled _ _ r0 r1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
